-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x2048 .f32) (main_arg8 : FVec F S2048 .f32) (main_arg9 : FVec F S2048x512 .f32) (main_arg10 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512x512 .f32) (main_arg5 : FVec F S512 .f32) (main_arg6 : FVec F S512 .f32) (main_arg7 : FVec F S512x2048 .f32) (main_arg8 : FVec F S2048 .f32) (main_arg9 : FVec F S2048x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x512x512 .f32) (main_arg1 : FVec F S512 .f32) (main_arg2 : FVec F S512 .f32) (main_arg3 : FVec F S512x512 .f32) (main_arg4 : FVec F S512x512 .f32) (main_arg5 : FVec F S512 .f32) (main_arg6 : FVec F S512 .f32) (main_arg7 : FVec F S512x2048 .f32) (main_arg8 : FVec F S2048 .f32) (main_arg9 : FVec F S2048x512 .f32) (main_arg10 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S64x512x512 : Shape := ⟨3, ![64, 512, 512]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S1x512x512 : Shape := ⟨3, ![1, 512, 512]⟩
abbrev S512x1 : Shape := ⟨2, ![512, 1]⟩
abbrev S1x512 : Shape := ⟨2, ![1, 512]⟩
abbrev S1x2048 : Shape := ⟨2, ![1, 2048]⟩

abbrev nBuf : Space → Nat
  | .hbm => 12
  | .vmem => 14
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x2048, .f32⟩
  | .hbm, ⟨8, _⟩ => ⟨S2048, .f32⟩
  | .hbm, ⟨9, _⟩ => ⟨S2048x512, .f32⟩
  | .hbm, ⟨10, _⟩ => ⟨S512, .f32⟩
  | .hbm, ⟨11, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S512, .f32⟩
  | .local _ .vmem, ⟨3, _⟩ => ⟨S512, .f32⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S512, .f32⟩
  | .local _ .vmem, ⟨8, _⟩ => ⟨S512x2048, .f32⟩
  | .local _ .vmem, ⟨9, _⟩ => ⟨S2048, .f32⟩
  | .local _ .vmem, ⟨10, _⟩ => ⟨S2048x512, .f32⟩
  | .local _ .vmem, ⟨11, _⟩ => ⟨S512, .f32⟩
  | .local _ .vmem, ⟨12, _⟩ => ⟨S1x512x512, .f32⟩
  | .local _ .vmem, ⟨13, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S512x512_S1x512x512 : S512x512.ShapeCasts S1x512x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .f32 = 32 ∨ (Rect.block (s := S512x2048) S512x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .f32 = 32 ∨ (Rect.block (s := S2048x512) S2048x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x512.size a ≤ S64x512x512.size a
  hwx0_11 : ∀ i : grid0.Coords, EltTy.bits .f32 = 32 ∨ (Rect.block (s := S64x512x512) S1x512x512.size (cc0_transform_11 i) (hinb0_11 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S_ : Shape := ⟨0, ![]⟩
abbrev S64x512 : Shape := ⟨2, ![64, 512]⟩
abbrev S64x512x1 : Shape := ⟨3, ![64, 512, 1]⟩
abbrev S1x1x512 : Shape := ⟨3, ![1, 1, 512]⟩
abbrev S64x512x2048 : Shape := ⟨3, ![64, 512, 2048]⟩
abbrev S1x1x2048 : Shape := ⟨3, ![1, 1, 2048]⟩

abbrev nBuf : Space → Nat
  | .hbm => 124
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x2048, .f32⟩
  | .hbm, ⟨8, _⟩ => ⟨S2048, .f32⟩
  | .hbm, ⟨9, _⟩ => ⟨S2048x512, .f32⟩
  | .hbm, ⟨10, _⟩ => ⟨S512, .f32⟩
  | .hbm, ⟨11, _⟩ => ⟨S_, .f32⟩
  | .hbm, ⟨12, _⟩ => ⟨S64x512, .f32⟩
  | .hbm, ⟨13, _⟩ => ⟨S64x512x1, .f32⟩
  | .hbm, ⟨14, _⟩ => ⟨S_, .f32⟩
  | .hbm, ⟨15, _⟩ => ⟨S64x512x1, .f32⟩
  | .hbm, ⟨16, _⟩ => ⟨S64x512x1, .f32⟩
  | .hbm, ⟨17, _⟩ => ⟨S64x512x512, .f32⟩
  | .hbm, ⟨18, _⟩ => ⟨S64x512x512, .f32⟩
  | .hbm, ⟨19, _⟩ => ⟨S64x512x512, .f32⟩
  | .hbm, ⟨20, _⟩ => ⟨S_, .f32⟩
  | .hbm, ⟨21, _⟩ => ⟨S64x512, .f32⟩
  | .hbm, ⟨22, _⟩ => ⟨S64x512x1, .f32⟩
  | .hbm, ⟨23, _⟩ => ⟨S_, .f32⟩
  | .hbm, ⟨24, _⟩ => ⟨S64x512x1, .f32⟩
  | .hbm, ⟨25, _⟩ => ⟨S64x512x1, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S64x512x1, .f32⟩
  | .hbm, ⟨30, _⟩ => ⟨S64x512x1, .f32⟩
  | .hbm, ⟨31, _⟩ => ⟨S64x512x1, .f32⟩
  | .hbm, ⟨32, _⟩ => ⟨S64x512x512, .f32⟩
  | .hbm, ⟨33, _⟩ => ⟨S64x512x512, .f32⟩
  | .hbm, ⟨34, _⟩ => ⟨S1x1x512, .f32⟩
  | .hbm, ⟨35, _⟩ => ⟨S64x512x512, .f32⟩
  | .hbm, ⟨36, _⟩ => ⟨S64x512x512, .f32⟩
  | .hbm, ⟨37, _⟩ => ⟨S1x1x512, .f32⟩
  | .hbm, ⟨38, _⟩ => ⟨S64x512x512, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512x512, .f32⟩
  | .hbm, ⟨47, _⟩ => ⟨S64x512x512, .f32⟩
  | .hbm, ⟨48, _⟩ => ⟨S64x512x512, .f32⟩
  | .hbm, ⟨49, _⟩ => ⟨S_, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S_, .f32⟩
  | .hbm, ⟨54, _⟩ => ⟨S64x512, .f32⟩
  | .hbm, ⟨55, _⟩ => ⟨S_, .f32⟩
  | .hbm, ⟨56, _⟩ => ⟨S64x512, .f32⟩
  | .hbm, ⟨57, _⟩ => ⟨S64x512, .f32⟩
  | .hbm, ⟨58, _⟩ => ⟨S64x512x1, .f32⟩
  | .hbm, ⟨59, _⟩ => ⟨S64x512x512, .f32⟩
  | .hbm, ⟨60, _⟩ => ⟨S64x512x512, .f32⟩
  | .hbm, ⟨61, _⟩ => ⟨S64x512x512, .f32⟩
  | .hbm, ⟨62, _⟩ => ⟨S_, .f32⟩
  | .hbm, ⟨63, _⟩ => ⟨S64x512, .f32⟩
  | .hbm, ⟨64, _⟩ => ⟨S64x512x1, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S64x512x512, .f32⟩
  | .hbm, ⟨69, _⟩ => ⟨S_, .f32⟩
  | .hbm, ⟨70, _⟩ => ⟨S64x512, .f32⟩
  | .hbm, ⟨71, _⟩ => ⟨S64x512x1, .f32⟩
  | .hbm, ⟨72, _⟩ => ⟨S_, .f32⟩
  | .hbm, ⟨73, _⟩ => ⟨S64x512x1, .f32⟩
  | .hbm, ⟨74, _⟩ => ⟨S64x512x1, .f32⟩
  | .hbm, ⟨75, _⟩ => ⟨S64x512x512, .f32⟩
  | .hbm, ⟨76, _⟩ => ⟨S64x512x512, .f32⟩
  | .hbm, ⟨77, _⟩ => ⟨S64x512x512, .f32⟩
  | .hbm, ⟨78, _⟩ => ⟨S_, .f32⟩
  | .hbm, ⟨79, _⟩ => ⟨S64x512, .f32⟩
  | .hbm, ⟨80, _⟩ => ⟨S64x512x1, .f32⟩
  | .hbm, ⟨81, _⟩ => ⟨S_, .f32⟩
  | .hbm, ⟨82, _⟩ => ⟨S64x512x1, .f32⟩
  | .hbm, ⟨83, _⟩ => ⟨S64x512x1, .f32⟩
  | .hbm, ⟨84, _⟩ => ⟨S64x512x512, .f32⟩
  | .hbm, ⟨85, _⟩ => ⟨S64x512x512, .f32⟩
  | .hbm, ⟨86, _⟩ => ⟨S_, .f32⟩
  | .hbm, ⟨87, _⟩ => ⟨S64x512x1, .f32⟩
  | .hbm, ⟨88, _⟩ => ⟨S64x512x1, .f32⟩
  | .hbm, ⟨89, _⟩ => ⟨S64x512x1, .f32⟩
  | .hbm, ⟨90, _⟩ => ⟨S64x512x512, .f32⟩
  | .hbm, ⟨91, _⟩ => ⟨S64x512x512, .f32⟩
  | .hbm, ⟨92, _⟩ => ⟨S1x1x512, .f32⟩
  | .hbm, ⟨93, _⟩ => ⟨S64x512x512, .f32⟩
  | .hbm, ⟨94, _⟩ => ⟨S64x512x512, .f32⟩
  | .hbm, ⟨95, _⟩ => ⟨S1x1x512, .f32⟩
  | .hbm, ⟨96, _⟩ => ⟨S64x512x512, .f32⟩
  | .hbm, ⟨97, _⟩ => ⟨S64x512x512, .f32⟩
  | .hbm, ⟨98, _⟩ => ⟨S64x512x2048, .f32⟩
  | .hbm, ⟨99, _⟩ => ⟨S1x1x2048, .f32⟩
  | .hbm, ⟨100, _⟩ => ⟨S64x512x2048, .f32⟩
  | .hbm, ⟨101, _⟩ => ⟨S64x512x2048, .f32⟩
  | .hbm, ⟨102, _⟩ => ⟨S64x512x2048, .f32⟩
  | .hbm, ⟨103, _⟩ => ⟨S64x512x2048, .f32⟩
  | .hbm, ⟨104, _⟩ => ⟨S_, .f32⟩
  | .hbm, ⟨105, _⟩ => ⟨S64x512x2048, .f32⟩
  | .hbm, ⟨106, _⟩ => ⟨S64x512x2048, .f32⟩
  | .hbm, ⟨107, _⟩ => ⟨S64x512x2048, .f32⟩
  | .hbm, ⟨108, _⟩ => ⟨S_, .f32⟩
  | .hbm, ⟨109, _⟩ => ⟨S64x512x2048, .f32⟩
  | .hbm, ⟨110, _⟩ => ⟨S64x512x2048, .f32⟩
  | .hbm, ⟨111, _⟩ => ⟨S64x512x2048, .f32⟩
  | .hbm, ⟨112, _⟩ => ⟨S_, .f32⟩
  | .hbm, ⟨113, _⟩ => ⟨S64x512x2048, .f32⟩
  | .hbm, ⟨114, _⟩ => ⟨S64x512x2048, .f32⟩
  | .hbm, ⟨115, _⟩ => ⟨S_, .f32⟩
  | .hbm, ⟨116, _⟩ => ⟨S64x512x2048, .f32⟩
  | .hbm, ⟨117, _⟩ => ⟨S64x512x2048, .f32⟩
  | .hbm, ⟨118, _⟩ => ⟨S64x512x2048, .f32⟩
  | .hbm, ⟨119, _⟩ => ⟨S64x512x512, .f32⟩
  | .hbm, ⟨120, _⟩ => ⟨S1x1x512, .f32⟩
  | .hbm, ⟨121, _⟩ => ⟨S64x512x512, .f32⟩
  | .hbm, ⟨122, _⟩ => ⟨S64x512x512, .f32⟩
  | .hbm, ⟨123, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x512_0_1_2 : S64x512x1.BroadcastsInDim S64x512x512 (![0, 1, 2] : Fin 3 → Fin S64x512x512.rank)
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S_S64x512x512 : S_.BroadcastsInDim S64x512x512 (![] : Fin 0 → Fin S64x512x512.rank)
  bcast_S_S64x512 : S_.BroadcastsInDim S64x512 (![] : Fin 0 → Fin S64x512.rank)
  bcast_S2048_S1x1x2048_2 : S2048.BroadcastsInDim S1x1x2048 (![2] : Fin 1 → Fin S1x1x2048.rank)
  bcast_S1x1x2048_S64x512x2048_0_1_2 : S1x1x2048.BroadcastsInDim S64x512x2048 (![0, 1, 2] : Fin 3 → Fin S64x512x2048.rank)
  bcast_S_S64x512x2048 : S_.BroadcastsInDim S64x512x2048 (![] : Fin 0 → Fin S64x512x2048.rank)
  dot_S64x512x512_S512x512_S64x512x512_2_0_01_1_n_n_wf : DotDims.WF S64x512x512 S512x512 S64x512x512 [2] [0] [0, 1] [1] [] []
  dot_S64x512x512_S64x512x512_S64x512x512_2_2_1_1_0_0_wf : DotDims.WF S64x512x512 S64x512x512 S64x512x512 [2] [2] [1] [1] [0] [0]
  dot_S64x512x512_S512x2048_S64x512x2048_2_0_01_1_n_n_wf : DotDims.WF S64x512x512 S512x2048 S64x512x2048 [2] [0] [0, 1] [1] [] []
  dot_S64x512x2048_S2048x512_S64x512x512_2_0_01_1_n_n_wf : DotDims.WF S64x512x2048 S2048x512 S64x512x512 [2] [0] [0, 1] [1] [] []

variable [Facts₀]

def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def dot_S64x512x512_S512x2048_S64x512x2048_2_0_01_1_n_n : DotDims S64x512x512 S512x2048 S64x512x2048 where
  lhsContracting := [2]
  rhsContracting := [0]
  lhsNonContracting := [0, 1]
  rhsNonContracting := [1]
  lhsBatch := []
  rhsBatch := []
  wf := dot_S64x512x512_S512x2048_S64x512x2048_2_0_01_1_n_n_wf
def dot_S64x512x2048_S2048x512_S64x512x512_2_0_01_1_n_n : DotDims S64x512x2048 S2048x512 S64x512x512 where
  lhsContracting := [2]
  rhsContracting := [0]
  lhsNonContracting := [0, 1]
  rhsNonContracting := [1]
  lhsBatch := []
  rhsBatch := []
  wf := dot_S64x512x2048_S2048x512_S64x512x512_2_0_01_1_n_n_wf

class Facts : Prop extends Facts₀ where

variable [Facts]
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.LibStackOps.lean ====
/-
  ONE MATRIX OF A STACK, OPERATION BY OPERATION (a general kit, for any extents A, B, C).

  A kernel launched once per batch entry holds, at grid point b, one matrix of a stack [A, B, C] and computes with
  vector operations on that matrix; a reference written over the whole stack computes with host operations on the
  stack. When both follow the same algorithm, the value proof is a walk down the two expression trees side by side,
  carrying the relation "this matrix is member b of that stack":

      Mat b u U  :  u (i, j) = U (b, i, j)   for all i, j          (a column [B, 1] is the case C = 1)
      Row b u U  :  u i      = U (b, i)      for all i

  Every pair (vector operation, host operation) below preserves the relation, at the ideal values (floats are
  extended reals):
    * pointwise operations (add, sub, mul, div, sqrt, rsqrt, exp, tanh, max, a change of float format, a scalar
      constant), because both sides apply one function of extended reals at each index;
    * a sum or a maximum along the last axis (mat_rowsum, mat_rowmax), because row i of member b is row (b, i) of
      the stack; the kernel's accumulator is the neutral element and the host's initial value the same constant;
    * the keepdims layouts (row_keepcol: [B] as a column [B, 1]; mat_colbcast: a column copied along its row;
      mat_rowvec: a vector copied into every row), because each reads its operand at the same coordinates on both
      sides;
    * mat_cube: u · (u · u) against (U · U) · U, as jax's integer power 3 lowers on the two sides: multiplication
      of extended reals commutes;
    * mat_of_block, block_of_mat: the block [1, B, C] as the kernel loads and stores it.
  The matrix products are in the companion file (member times weight, member times member transposed).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import proofs.«131922_j49916109914403_1_alg».proof.Proof.LibColumnLayout
import proofs.«131922_j49916109914403_1_alg».proof.Proof.LibAxisSums

noncomputable section

namespace Cert.Stack

open Idealize.ShloMosaic Idealize.ShloMosaic.ValueIdx

variable {A B C K : ℕ}

/-- The matrix u is member b of the stack U. -/
def Mat (b : Fin A) (u : (⟨2, ![B, C]⟩ : Shape).Idx → EReal) (U : (⟨3, ![A, B, C]⟩ : Shape).Idx → EReal) : Prop :=
  ∀ (i : Fin B) (j : Fin C), u (ix2 i j) = U (ix3 b i j)

/-- The vector u is row b of the matrix U. -/
def Row (b : Fin A) (u : (⟨1, ![B]⟩ : Shape).Idx → EReal) (U : (⟨2, ![A, B]⟩ : Shape).Idx → EReal) : Prop :=
  ∀ i : Fin B, u (ix1 i) = U (ix2 b i)

/-! ## Pointwise operations -/

section Pointwise
variable {φ : FTy} {b : Fin A} {u v : FVec Ideal ⟨2, ![B, C]⟩ φ} {U V : FVec Ideal ⟨3, ![A, B, C]⟩ φ}

theorem mat_add (hu : Mat b u U) (hv : Mat b v V) : Mat b (addf u v) (addf U V) :=
  fun i j => congrArg₂ (· + ·) (hu i j) (hv i j)

theorem mat_sub (hu : Mat b u U) (hv : Mat b v V) : Mat b (subf u v) (subf U V) :=
  fun i j => congrArg₂ (· - ·) (hu i j) (hv i j)

theorem mat_mul (hu : Mat b u U) (hv : Mat b v V) : Mat b (mulf u v) (mulf U V) :=
  fun i j => congrArg₂ (· * ·) (hu i j) (hv i j)

/-- The vector unit's quotient and the host's are one function of two extended reals. -/
theorem mat_div (hu : Mat b u U) (hv : Mat b v V) : Mat b (divf u v) (Host.divf U V) :=
  fun i j => congrArg₂ Ideal.div (hu i j) (hv i j)

theorem mat_sqrt (hu : Mat b u U) : Mat b (sqrt u) (Host.sqrt U) :=
  fun i j => congrArg Ideal.sqrt (hu i j)

theorem mat_rsqrt (hu : Mat b u U) : Mat b (rsqrt u) (Host.rsqrt U) :=
  fun i j => congrArg Ideal.rsqrt (hu i j)

theorem mat_exp (hu : Mat b u U) : Mat b (exp u) (Host.exp U) :=
  fun i j => congrArg Ideal.exp (hu i j)

theorem mat_tanh (hu : Mat b u U) : Mat b (tanh u) (Host.tanh U) :=
  fun i j => congrArg Ideal.tanh (hu i j)

/-- A change of float format is the identity on extended reals. -/
theorem mat_trunc {ψ : FTy} (hψ : ψ.bits < φ.bits) (hu : Mat b u U) : Mat b (truncf ψ u hψ) U := hu

/-- u · (u · u) = (U · U) · U where u is U's member: multiplication of extended reals commutes. -/
theorem mat_cube (hu : Mat b u U) : Mat b (mulf u (mulf u u)) (mulf (mulf U U) U) := fun i j => by
  show u (ix2 i j) * (u (ix2 i j) * u (ix2 i j)) = U (ix3 b i j) * U (ix3 b i j) * U (ix3 b i j)
  rw [hu i j, mul_comm]

end Pointwise

/-- A scalar constant splat over the matrix and broadcast over the stack is the same number everywhere. -/
theorem mat_const (b : Fin A) (w : BitVec 32) (dims : Fin 0 → Fin 3)
    (h : (⟨0, ![]⟩ : Shape).BroadcastsInDim ⟨3, ![A, B, C]⟩ dims) :
    Mat b (broadcast ⟨2, ![B, C]⟩ (Scalar.ofBits (F := Ideal) .f32 w))
      (broadcastInDim ⟨3, ![A, B, C]⟩ dims h (constant (F := Ideal) ⟨0, ![]⟩ .f32 w)) :=
  fun i j => by
    show FloatOps.ofBits (F := Ideal) .f32 w = _
    exact (broadcastInDim_apply dims h (constant (F := Ideal) ⟨0, ![]⟩ .f32 w) (ix3 b i j) ix0 (fun a => a.elim0)).symm

theorem row_const (b : Fin A) (w : BitVec 32) (dims : Fin 0 → Fin 2)
    (h : (⟨0, ![]⟩ : Shape).BroadcastsInDim ⟨2, ![A, B]⟩ dims) :
    Row b (broadcast ⟨1, ![B]⟩ (Scalar.ofBits (F := Ideal) .f32 w))
      (broadcastInDim ⟨2, ![A, B]⟩ dims h (constant (F := Ideal) ⟨0, ![]⟩ .f32 w)) :=
  fun i => by
    show FloatOps.ofBits (F := Ideal) .f32 w = _
    exact (broadcastInDim_apply dims h (constant (F := Ideal) ⟨0, ![]⟩ .f32 w) (ix2 b i) ix0 (fun a => a.elim0)).symm

theorem row_max {φ : FTy} {b : Fin A} {u v : FVec Ideal ⟨1, ![B]⟩ φ} {U V : FVec Ideal ⟨2, ![A, B]⟩ φ}
    (hu : Row b u U) (hv : Row b v V) : Row b (maximumf u v) (maximumf U V) :=
  fun i => congrArg₂ max (hu i) (hv i)

/-! ## Sums and maxima along the last axis -/

/-- The coordinates of the stack index over (b, i) with last coordinate k. -/
theorem lift_last (h3 : (⟨3, ![A, B, C]⟩ : Shape).Reduces [2] ⟨2, ![A, B]⟩) (b : Fin A) (i : Fin B) (k : Fin C) :
    h3.lift (ix2 b i) k = ix3 b i k :=
  funext fun d => Fin.ext (by match d with | ⟨0, _⟩ => rfl | ⟨1, _⟩ => rfl | ⟨2, _⟩ => rfl)

/-- The coordinates of the matrix index over i with last coordinate k. -/
theorem lift_last2 (h2 : (⟨2, ![B, C]⟩ : Shape).Reduces [1] ⟨1, ![B]⟩) (i : Fin B) (k : Fin C) :
    h2.lift (ix1 i) k = ix2 i k :=
  funext fun d => Fin.ext (by match d with | ⟨0, _⟩ => rfl | ⟨1, _⟩ => rfl)

/-- Row sums: the kernel's lane sum of member b (its accumulator the neutral zero) is row b of the host's sum over
    the last axis from the initial value zero. -/
theorem mat_rowsum {b : Fin A} {u : FVec Ideal ⟨2, ![B, C]⟩ .f32} {U : FVec Ideal ⟨3, ![A, B, C]⟩ .f32} (hu : Mat b u U)
    (acc : BitVec 32) (h : (⟨2, ![B, C]⟩ : Shape).Reduces [1] ⟨1, ![B]⟩) (hφ : FKind.Formats .f32)
    (hacc : acc = FKind.add.neutral .f32 hφ) (h' : (⟨3, ![A, B, C]⟩ : Shape).ReducesTo [2] ⟨2, ![A, B]⟩)
    (hu0 : 0 < (⟨0, ![]⟩ : Shape).numel) :
    Row b (multiReduction .add [1] ⟨1, ![B]⟩ u acc h hφ hacc)
      (Host.reduceAdd U (constant (F := Ideal) ⟨0, ![]⟩ .f32 0x00000000#32) h' hu0) := fun i => by
  have h3 : (⟨3, ![A, B, C]⟩ : Shape).Reduces [2] ⟨2, ![A, B]⟩ := ⟨h'.1, Nat.two_pos, h'.2⟩
  refine (Cert.Lib.AxisSums.multiReduction_add_last_apply u acc h hφ hacc i).trans (Eq.symm ?_)
  show Ideal.hostReduceAdd h' U (Ideal.ofBits .f32 0x00000000#32) (ix2 b i) = _
  rw [Ideal.hostReduceAdd_single h' h3, Ideal.ofBits_zero_f32, zero_add]
  refine Finset.sum_congr rfl fun k _ => ?_
  rw [lift_last h3 b i k]
  exact (hu i k).symm

/-- Row maxima: the kernel's lane maximum of member b from -inf is row b of the host's maximum over the last axis
    from the same initial value. -/
theorem mat_rowmax {b : Fin A} {u : FVec Ideal ⟨2, ![B, C]⟩ .f32} {U : FVec Ideal ⟨3, ![A, B, C]⟩ .f32} (hu : Mat b u U)
    (acc : BitVec 32) (h : (⟨2, ![B, C]⟩ : Shape).Reduces [1] ⟨1, ![B]⟩) (hφ : FKind.Formats .f32)
    (hacc : acc = FKind.maximumf.neutral .f32 hφ) (h' : (⟨3, ![A, B, C]⟩ : Shape).ReducesTo [2] ⟨2, ![A, B]⟩)
    (hu0 : 0 < (⟨0, ![]⟩ : Shape).numel) :
    Row b (multiReduction .maximumf [1] ⟨1, ![B]⟩ u acc h hφ hacc)
      (Host.reduce (FloatOps.maximumf (F := Ideal) (φ := .f32)) U (constant (F := Ideal) ⟨0, ![]⟩ .f32 acc) h' hu0) := fun i => by
  have h3 : (⟨3, ![A, B, C]⟩ : Shape).Reduces [2] ⟨2, ![A, B]⟩ := ⟨h'.1, Nat.two_pos, h'.2⟩
  refine (Ideal.multiReduction_maximumf_single u acc h hφ hacc (ix1 i)).trans (Eq.symm ?_)
  refine (Host.reduce_eq_fold_single (FloatOps.maximumf (F := Ideal) (φ := .f32)) U _ h' h3 hu0 (ix2 b i)).trans ?_
  show (Finset.univ : Finset (Fin C)).fold max (Ideal.ofBits .f32 acc) (fun k => U (h3.lift (ix2 b i) k))
    = (Finset.univ : Finset (Fin C)).fold max (Ideal.ofBits .f32 acc) (fun k => u (h.lift (ix1 i) k))
  refine Finset.fold_congr fun k _ => ?_
  rw [lift_last h3 b i k, lift_last2 h i k]
  exact (hu i k).symm

/-! ## The keepdims layouts -/

/-- A row statistic kept as a column: the vector cast to [B, 1] against the host's [A, B] laid out as [A, B, 1]. -/
theorem row_keepcol {b : Fin A} {v : (⟨1, ![B]⟩ : Shape).Idx → EReal} {V : (⟨2, ![A, B]⟩ : Shape).Idx → EReal}
    (hv : Row b v V) (h : (⟨1, ![B]⟩ : Shape).ShapeCasts ⟨2, ![B, 1]⟩)
    (h' : (⟨2, ![A, B]⟩ : Shape).BroadcastsInDim ⟨3, ![A, B, 1]⟩ ![0, 1]) :
    Mat b (shapeCast ⟨2, ![B, 1]⟩ v h) (broadcastInDim ⟨3, ![A, B, 1]⟩ ![0, 1] h' V) := fun i u => by
  refine (ColumnLayout.shapeCast_a_a1_apply v h i u).trans ((hv i).trans (Eq.symm ?_))
  refine broadcastInDim_apply ![0, 1] h' V (ix3 b i u) (ix2 b i) fun a => ?_
  match a with
  | ⟨0, _⟩ =>
    show b.val = if A = 1 then 0 else b.val
    split
    · have := b.isLt; omega
    · rfl
  | ⟨1, _⟩ =>
    show i.val = if B = 1 then 0 else i.val
    split
    · have := i.isLt; omega
    · rfl

/-- A column copied along its row, on both sides. -/
theorem mat_colbcast {b : Fin A} {u : (⟨2, ![B, 1]⟩ : Shape).Idx → EReal} {U : (⟨3, ![A, B, 1]⟩ : Shape).Idx → EReal}
    (hu : Mat b u U) (h : (⟨2, ![B, 1]⟩ : Shape).Broadcasts ⟨2, ![B, C]⟩)
    (h' : (⟨3, ![A, B, 1]⟩ : Shape).BroadcastsInDim ⟨3, ![A, B, C]⟩ ![0, 1, 2]) :
    Mat b (broadcastTo ⟨2, ![B, C]⟩ u h) (broadcastInDim ⟨3, ![A, B, C]⟩ ![0, 1, 2] h' U) := fun i j => by
  refine (ColumnLayout.broadcastTo_a1_ab_apply u h i j).trans ((hu i 0).trans (Eq.symm ?_))
  refine broadcastInDim_apply ![0, 1, 2] h' U (ix3 b i j) (ix3 b i (0 : Fin 1)) fun a => ?_
  match a with
  | ⟨0, _⟩ =>
    show b.val = if A = 1 then 0 else b.val
    split
    · have := b.isLt; omega
    · rfl
  | ⟨1, _⟩ =>
    show i.val = if B = 1 then 0 else i.val
    split
    · have := i.isLt; omega
    · rfl
  | ⟨2, _⟩ => rfl

/-- A vector (a LayerNorm gain or a bias) copied into every row: the kernel casts it to one row and copies the row
    down, the host lays it out as [1, 1, C] and copies it over the stack; both read the vector at the column. -/
theorem mat_rowvec (b : Fin A) (g : (⟨1, ![C]⟩ : Shape).Idx → EReal)
    (h1 : (⟨1, ![C]⟩ : Shape).ShapeCasts ⟨2, ![1, C]⟩) (h2 : (⟨2, ![1, C]⟩ : Shape).Broadcasts ⟨2, ![B, C]⟩)
    (h4 : (⟨1, ![C]⟩ : Shape).BroadcastsInDim ⟨3, ![1, 1, C]⟩ ![2])
    (h3 : (⟨3, ![1, 1, C]⟩ : Shape).BroadcastsInDim ⟨3, ![A, B, C]⟩ ![0, 1, 2]) :
    Mat b (broadcastTo ⟨2, ![B, C]⟩ (shapeCast ⟨2, ![1, C]⟩ g h1) h2)
      (broadcastInDim ⟨3, ![A, B, C]⟩ ![0, 1, 2] h3 (broadcastInDim ⟨3, ![1, 1, C]⟩ ![2] h4 g)) := fun i j => by
  refine (broadcastTo_1b_ab_apply _ h2 i j).trans ((shapeCast_a_1a_apply g h1 0 j).trans (Eq.symm ?_))
  refine (broadcastInDim_apply ![0, 1, 2] h3 _ (ix3 b i j) (ix3 (0 : Fin 1) (0 : Fin 1) j) fun a => ?_).trans
    (broadcastInDim_apply ![2] h4 g (ix3 (0 : Fin 1) (0 : Fin 1) j) (ix1 j) fun a => ?_)
  · match a with
    | ⟨0, _⟩ => rfl
    | ⟨1, _⟩ => rfl
    | ⟨2, _⟩ =>
      show j.val = if C = 1 then 0 else j.val
      split
      · have := j.isLt; omega
      · rfl
  · match a with
    | ⟨0, _⟩ =>
      show j.val = if C = 1 then 0 else j.val
      split
      · have := j.isLt; omega
      · rfl

/-! ## The block as the kernel meets it and leaves it -/

/-- The loaded block [1, B, C] read as a matrix is member b when the block is. -/
theorem mat_of_block {b : Fin A} {x0 : (⟨3, ![1, B, C]⟩ : Shape).Idx → EReal} {X : (⟨3, ![A, B, C]⟩ : Shape).Idx → EReal}
    (hx : ∀ (i : Fin B) (j : Fin C), x0 (ix3 (0 : Fin 1) i j) = X (ix3 b i j))
    (h : (⟨3, ![1, B, C]⟩ : Shape).ShapeCasts ⟨2, ![B, C]⟩) : Mat b (shapeCast ⟨2, ![B, C]⟩ x0 h) X :=
  fun i j => (shapeCast_1ab_ab_apply x0 h i j).trans (hx i j)

/-- The stored block [1, B, C] made from a matrix that is member b reads the stack at (b, i, j). -/
theorem block_of_mat {b : Fin A} {v : (⟨2, ![B, C]⟩ : Shape).Idx → EReal} {X : (⟨3, ![A, B, C]⟩ : Shape).Idx → EReal}
    (hv : Mat b v X) (h : (⟨2, ![B, C]⟩ : Shape).ShapeCasts ⟨3, ![1, B, C]⟩) (u : Fin 1) (i : Fin B) (j : Fin C) :
    shapeCast ⟨3, ![1, B, C]⟩ v h (ix3 u i j) = X (ix3 b i j) :=
  (shapeCast_ab_1ab_apply v h u i j).trans (hv i j)

end Cert.Stack

end
-- ==== Proof.LibStackProducts.lean ====
/-
  THE MATRIX PRODUCTS, MEMBER AGAINST STACK (a general kit, for any extents; companion of the operations file).

  Two kinds of product meet in the two programs.
    * Activations times a weight matrix: the kernel multiplies its matrix u (B × K) by the weight w (K × C); the
      reference contracts the stack U (A × B × K) with the same weight over the stack's last axis and the weight's
      first. At (b, i, j) both are the sum over e of u(i, e) · w(e, j).
    * Scores and the weighted sum: the kernel multiplies u (B × K) by v (C × K) contracting the LAST axis of both
      (v enters transposed); the reference contracts the two stacks U (A × B × K), V (A × C × K) over their last
      axes, batch entry by batch entry. At (b, i, j) both are the sum over e of u(i, e) · v(j, e).
  The kernel accumulates into a zero splat; the host has no accumulator; 0 + s = s for every extended real s.
  Each product is first read at an index as a sum over a coordinate e < K (the contraction index of the dimension
  numbers is its one coordinate), and then the two sums are compared term by term.
-/
import proofs.«131922_j49916109914403_1_alg».proof.Proof.LibStackOps

noncomputable section

namespace Cert.Stack

open Idealize.ShloMosaic Idealize.ShloMosaic.ValueIdx

variable {A B C K : ℕ} {φ₁ φ₂ φ₃ φ₄ : FTy}

/-- u (B × K) times v (C × K) with v transposed: at (i, j) the sum over e of u(i, e) · v(j, e). -/
theorem dotGeneral_transposedRhs_apply (prec : Option ContractPrecision)
    (u : FVec Ideal ⟨2, ![B, K]⟩ φ₁) (v : FVec Ideal ⟨2, ![C, K]⟩ φ₂) (i : Fin B) (j : Fin C) :
    Host.dotGeneral (DotDims.transposedRhs B K C) prec u v (ix2 i j) = ∑ e : Fin K, u (ix2 i e) * v (ix2 j e) := by
  show FloatOps.dotGeneral _ prec _ u v (ix2 i j) = _
  rw [Ideal.dotGeneral_apply, ← Equiv.sum_comp (contrEquiv1 (DotDims.transposedRhs B K C) K rfl rfl).symm]
  refine Finset.sum_congr rfl fun e _ => ?_
  have c2 := contrEquiv1_symm_val (DotDims.transposedRhs B K C) K rfl rfl e
  have l2 : (DotDims.transposedRhs B K C).lhsIdx (ix2 i j) ((contrEquiv1 _ K rfl rfl).symm e) = ix2 i e := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs B K C).rhsIdx (ix2 i j) ((contrEquiv1 _ K rfl rfl).symm e) = ix2 j e := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The stack U (A × B × K) times the weight X (K × C): at (b, i, j) the sum over e of U(b, i, e) · X(e, j). -/
theorem dotGeneral_stackWeight_apply
    (w : DotDims.WF ⟨3, ![A, B, K]⟩ ⟨2, ![K, C]⟩ ⟨3, ![A, B, C]⟩ [2] [0] [0, 1] [1] [] [])
    (prec : Option ContractPrecision) (U : FVec Ideal ⟨3, ![A, B, K]⟩ φ₁) (X : FVec Ideal ⟨2, ![K, C]⟩ φ₂)
    (b : Fin A) (i : Fin B) (j : Fin C) :
    Host.dotGeneral (⟨[2], [0], [0, 1], [1], [], [], w⟩ : DotDims _ _ _) prec U X (ix3 b i j)
      = ∑ e : Fin K, U (ix3 b i e) * X (ix2 e j) := by
  show FloatOps.dotGeneral _ prec _ U X (ix3 b i j) = _
  rw [Ideal.dotGeneral_apply,
    ← Equiv.sum_comp (contrEquiv1 (⟨[2], [0], [0, 1], [1], [], [], w⟩ : DotDims _ _ _) K rfl rfl).symm]
  refine Finset.sum_congr rfl fun e _ => ?_
  have c3 := contrEquiv1_symm_val
    (⟨[2], [0], [0, 1], [1], [], [], w⟩ : DotDims ⟨3, ![A, B, K]⟩ ⟨2, ![K, C]⟩ ⟨3, ![A, B, C]⟩) K rfl rfl e
  have l3 : (⟨[2], [0], [0, 1], [1], [], [], w⟩ : DotDims ⟨3, ![A, B, K]⟩ ⟨2, ![K, C]⟩ ⟨3, ![A, B, C]⟩).lhsIdx (ix3 b i j)
      ((contrEquiv1 _ K rfl rfl).symm e) = ix3 b i e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![A, B, K]⟩ ⟨2, ![K, C]⟩ ⟨3, ![A, B, C]⟩).rhsIdx (ix3 b i j)
      ((contrEquiv1 _ K rfl rfl).symm e) = ix2 e j := by
    funext ax; apply Fin.ext
    match ax with
    | ⟨0, _⟩ => simp [DotDims.rhsIdx]; exact c3
    | ⟨1, _⟩ => simp [DotDims.rhsIdx]; rfl
  rw [l3, r3]

/-- Two stacks U (A × B × K), V (A × C × K) contracted over their last axes, entry by entry: at (b, i, j) the sum
    over e of U(b, i, e) · V(b, j, e). -/
theorem dotGeneral_stackPair_apply
    (w : DotDims.WF ⟨3, ![A, B, K]⟩ ⟨3, ![A, C, K]⟩ ⟨3, ![A, B, C]⟩ [2] [2] [1] [1] [0] [0])
    (prec : Option ContractPrecision) (U : FVec Ideal ⟨3, ![A, B, K]⟩ φ₁) (V : FVec Ideal ⟨3, ![A, C, K]⟩ φ₂)
    (b : Fin A) (i : Fin B) (j : Fin C) :
    Host.dotGeneral (⟨[2], [2], [1], [1], [0], [0], w⟩ : DotDims _ _ _) prec U V (ix3 b i j)
      = ∑ e : Fin K, U (ix3 b i e) * V (ix3 b j e) := by
  show FloatOps.dotGeneral _ prec _ U V (ix3 b i j) = _
  rw [Ideal.dotGeneral_apply,
    ← Equiv.sum_comp (contrEquiv1 (⟨[2], [2], [1], [1], [0], [0], w⟩ : DotDims _ _ _) K rfl rfl).symm]
  refine Finset.sum_congr rfl fun e _ => ?_
  have c3 := contrEquiv1_symm_val
    (⟨[2], [2], [1], [1], [0], [0], w⟩ : DotDims ⟨3, ![A, B, K]⟩ ⟨3, ![A, C, K]⟩ ⟨3, ![A, B, C]⟩) K rfl rfl e
  have l3 : (⟨[2], [2], [1], [1], [0], [0], w⟩ : DotDims ⟨3, ![A, B, K]⟩ ⟨3, ![A, C, K]⟩ ⟨3, ![A, B, C]⟩).lhsIdx (ix3 b i j)
      ((contrEquiv1 _ K rfl rfl).symm e) = ix3 b i e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![A, B, K]⟩ ⟨3, ![A, C, K]⟩ ⟨3, ![A, B, C]⟩).rhsIdx (ix3 b i j)
      ((contrEquiv1 _ K rfl rfl).symm e) = ix3 b j e := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Member times weight: the kernel's product of member b with a weight, into the zero accumulator, is member b of
    the host's product of the stack with the same weight. -/
theorem mat_mm {b : Fin A} {u : FVec Ideal ⟨2, ![B, K]⟩ φ₁} {U : FVec Ideal ⟨3, ![A, B, K]⟩ φ₃} (hu : Mat b u U)
    {x : FVec Ideal ⟨2, ![K, C]⟩ φ₂} {X : FVec Ideal ⟨2, ![K, C]⟩ φ₄} (hx : ∀ (e : Fin K) (j : Fin C), x (ix2 e j) = X (ix2 e j))
    (w : DotDims.WF ⟨3, ![A, B, K]⟩ ⟨2, ![K, C]⟩ ⟨3, ![A, B, C]⟩ [2] [0] [0, 1] [1] [] [])
    (prec prec' : Option ContractPrecision) :
    Mat b (matmul (DotDims.plain B K C) prec u x (constant ⟨2, ![B, C]⟩ .f32 0x00000000#32))
      (Host.dotGeneral (⟨[2], [0], [0, 1], [1], [], [], w⟩ : DotDims _ _ _) prec' U X) := fun i j => by
  rw [matmul_zero_eq_dotGeneral, StackMember.dotGeneral_plain_apply, dotGeneral_stackWeight_apply]
  exact Finset.sum_congr rfl fun e _ => congrArg₂ (· * ·) (hu i e) (hx e j)

/-- The same with the weight as the kernel passes it, converted to the narrower float format on the way into the
    product: the conversion is the identity on extended reals. -/
theorem mat_mmW {b : Fin A} {u : FVec Ideal ⟨2, ![B, K]⟩ φ₁} {U : FVec Ideal ⟨3, ![A, B, K]⟩ φ₃} (hu : Mat b u U)
    (W : FVec Ideal ⟨2, ![K, C]⟩ φ₄) (hψ : φ₂.bits < φ₄.bits)
    (w : DotDims.WF ⟨3, ![A, B, K]⟩ ⟨2, ![K, C]⟩ ⟨3, ![A, B, C]⟩ [2] [0] [0, 1] [1] [] [])
    (prec prec' : Option ContractPrecision) :
    Mat b (matmul (DotDims.plain B K C) prec u (truncf φ₂ W hψ) (constant ⟨2, ![B, C]⟩ .f32 0x00000000#32))
      (Host.dotGeneral (⟨[2], [0], [0, 1], [1], [], [], w⟩ : DotDims _ _ _) prec' U W) :=
  mat_mm hu (fun _ _ => rfl) w prec prec'

/-- Member times member transposed: the kernel's product of two members, the second contracted on its last axis,
    is member b of the host's entry-by-entry contraction of the two stacks over their last axes. -/
theorem mat_mmT {b : Fin A} {u : FVec Ideal ⟨2, ![B, K]⟩ φ₁} {U : FVec Ideal ⟨3, ![A, B, K]⟩ φ₃} (hu : Mat b u U)
    {v : FVec Ideal ⟨2, ![C, K]⟩ φ₂} {V : FVec Ideal ⟨3, ![A, C, K]⟩ φ₄} (hv : Mat b v V)
    (w : DotDims.WF ⟨3, ![A, B, K]⟩ ⟨3, ![A, C, K]⟩ ⟨3, ![A, B, C]⟩ [2] [2] [1] [1] [0] [0])
    (prec prec' : Option ContractPrecision) :
    Mat b (matmul (DotDims.transposedRhs B K C) prec u v (constant ⟨2, ![B, C]⟩ .f32 0x00000000#32))
      (Host.dotGeneral (⟨[2], [2], [1], [1], [0], [0], w⟩ : DotDims _ _ _) prec' U V) := fun i j => by
  rw [matmul_zero_eq_dotGeneral, dotGeneral_transposedRhs_apply, dotGeneral_stackPair_apply]
  exact Finset.sum_congr rfl fun e _ => congrArg₂ (· * ·) (hu i e) (hv j e)

end Cert.Stack

end
-- ==== Proof.Stages.lean ====
/-
  THE TWO PROGRAMS, STAGE BY STAGE.

  With x the batch entry b of the input stack, both programs compute, in this order:
    1. inp  = LayerNorm(x; gamma1, beta1): per row, mean = sum / 512, var = sum of squared deviations / 512,
              (x - mean) · rsqrt(var + eps) · gamma1 + beta1;
    2. vx   = sqrt((inp · Wv)² + eps');
    3. s    = (inp · Ww) · inpᵀ;
    4. x2   = x + softmax(sqrt(s² + eps')) · vxᵀ, the softmax by rows: exp(z - max(-inf, row max)) over its row sum;
    5. h    = LayerNorm(x2; gamma2, beta2);
    6. out  = x2 + gelu(h · W1 + b1) · W2 + b2, gelu(t) = t · (0.5 · (1 + tanh(c · (t + a · t³)))).
  The kernel's body and the reference's host program are cut at the same stages, and each stage's result in the
  kernel (a matrix) is member b of the stage's result in the reference (a stack): every lemma below unfolds one
  stage on both sides and walks the two trees with the operation lemmas of the stack modules. The constants are the
  same words on both sides and are never evaluated.
-/
import proofs.«131922_j49916109914403_1_alg».proof.Proof.LibStackOps
import proofs.«131922_j49916109914403_1_alg».proof.Proof.LibStackProducts
import proofs.«131922_j49916109914403_1_alg».proof.Proof.Gen.KernelIdeal.Skeleton
import proofs.«131922_j49916109914403_1_alg».proof.Proof.Gen.ReferenceIdeal.Run

noncomputable section

namespace Cert.Bridge

open Idealize.ShloMosaic Idealize.ShloMosaic.ValueIdx Idealize.ShloMosaic.StableHlo Cert.Stack
open Cert.ReferenceIdeal Cert.ReferenceIdeal.Gen Cert.ReferenceIdeal.Value
open Cert.KernelIdeal.Gen (k0_pay1 k0_pay2 k0_pay3 k0_pay4 k0_pay5 k0_pay6 k0_pay7)

/-- One step down the two trees: a known relation, or the lemma of the pair of operations at the two roots. A
    lemma is chosen by the names of the two root operations, not up to unfolding: at the ideal values a difference
    is a sum with a negation, a product of matrices is a sum, and a change of float format is the identity, so the
    unfolded forms do not tell the operations apart. The cube u · (u · u) is recognised before the plain product; the
    row maximum before the row sum; the two kinds of matrix product by their dimension numbers. -/
macro "stack_step" : tactic => `(tactic| first
  | with_reducible assumption
  | with_reducible apply mat_trunc
  | with_reducible apply mat_cube
  | with_reducible apply mat_sub | with_reducible apply mat_add | with_reducible apply mat_mul
  | with_reducible apply mat_div | with_reducible apply mat_sqrt | with_reducible apply mat_rsqrt
  | with_reducible apply mat_exp | with_reducible apply mat_tanh | with_reducible apply row_max
  | with_reducible apply mat_colbcast | with_reducible apply mat_rowvec | with_reducible apply row_keepcol
  | with_reducible apply mat_const | with_reducible apply row_const
  | apply mat_rowmax | apply mat_rowsum
  | apply mat_mmW | apply mat_mmT)

/-- The walk: steps until every leaf is a known relation. -/
macro "stack_walk" : tactic => `(tactic| repeat' stack_step)

/-- The reference's buffers at launch. -/
abbrev Val : Type := Valuation τ sig (Elt Ideal)

variable (V0 : Val) (b : Fin 64)

/-- The reference's argument arrays. -/
abbrev aX : FVec Ideal S64x512x512 .f32 := V0 (Proc.devRef .tc main_arg0)
abbrev aG1 : FVec Ideal S512 .f32 := V0 (Proc.devRef .tc main_arg1)
abbrev aB1 : FVec Ideal S512 .f32 := V0 (Proc.devRef .tc main_arg2)
abbrev aWv : FVec Ideal S512x512 .f32 := V0 (Proc.devRef .tc main_arg3)
abbrev aWw : FVec Ideal S512x512 .f32 := V0 (Proc.devRef .tc main_arg4)
abbrev aG2 : FVec Ideal S512 .f32 := V0 (Proc.devRef .tc main_arg5)
abbrev aB2 : FVec Ideal S512 .f32 := V0 (Proc.devRef .tc main_arg6)
abbrev aW1 : FVec Ideal S512x2048 .f32 := V0 (Proc.devRef .tc main_arg7)
abbrev aBb1 : FVec Ideal S2048 .f32 := V0 (Proc.devRef .tc main_arg8)
abbrev aW2 : FVec Ideal S2048x512 .f32 := V0 (Proc.devRef .tc main_arg9)
abbrev aBb2 : FVec Ideal S512 .f32 := V0 (Proc.devRef .tc main_arg10)

/-- The reference's vx = sqrt((inp · Wv)² + eps'), as its run spells it inside the residual sum. -/
abbrev refVx : FVec Ideal S64x512x512 .f32 :=
  (Host.sqrt (F := Ideal) (addf (mulf (res_main_v24 V0) (res_main_v24 V0)) (broadcastInDim S64x512x512 ![] bcast_S_S64x512x512 (constant (F := Ideal) S_ .f32 0x322BCC77#32))))

/-- The reference's second LayerNorm, as its run spells it inside the first MLP product. -/
abbrev refLN2 : FVec Ideal S64x512x512 .f32 :=
  (addf (mulf (mulf (subf (res_main_v47 V0) (broadcastInDim S64x512x512 ![0, 1, 2] bcast_S64x512x1_S64x512x512_0_1_2 (res_main_v51 V0))) (broadcastInDim S64x512x512 ![0, 1, 2] bcast_S64x512x1_S64x512x512_0_1_2 (Host.rsqrt (F := Ideal) (addf (Host.divf (F := Ideal) (broadcastInDim S64x512x1 ![0, 1] bcast_S64x512_S64x512x1_0_1 (Host.reduceAdd (F := Ideal) (mulf (res_main_v53 V0) (res_main_v53 V0)) (constant (F := Ideal) S_ .f32 0x00000000#32) reducesTo_S64x512x512_S64x512_d2 h_S_)) (broadcastInDim S64x512x1 ![] bcast_S_S64x512x1 (constant (F := Ideal) S_ .f32 0x44000000#32))) (broadcastInDim S64x512x1 ![] bcast_S_S64x512x1 (constant (F := Ideal) S_ .f32 0x3727C5AC#32)))))) (broadcastInDim S64x512x512 ![0, 1, 2] bcast_S1x1x512_S64x512x512_0_1_2 (broadcastInDim S1x1x512 ![2] bcast_S512_S1x1x512_2 (aG2 V0)))) (broadcastInDim S64x512x512 ![0, 1, 2] bcast_S1x1x512_S64x512x512_0_1_2 (broadcastInDim S1x1x512 ![2] bcast_S512_S1x1x512_2 (aB2 V0))))

/-- The reference's result, as its run spells it. -/
abbrev refOut : FVec Ideal S64x512x512 .f32 :=
  addf (res_main_v47 V0) (addf (Host.dotGeneral (F := Ideal) dot_S64x512x2048_S2048x512_S64x512x512_2_0_01_1_n_n none (mulf (res_main_v75 V0) (mulf (broadcastInDim S64x512x2048 ![] bcast_S_S64x512x2048 (constant (F := Ideal) S_ .f32 0x3F000000#32)) (addf (broadcastInDim S64x512x2048 ![] bcast_S_S64x512x2048 (constant (F := Ideal) S_ .f32 0x3F800000#32)) (Host.tanh (F := Ideal) (mulf (broadcastInDim S64x512x2048 ![] bcast_S_S64x512x2048 (constant (F := Ideal) S_ .f32 0x3F4C422A#32)) (addf (res_main_v75 V0) (mulf (broadcastInDim S64x512x2048 ![] bcast_S_S64x512x2048 (constant (F := Ideal) S_ .f32 0x3D372713#32)) (mulf (mulf (res_main_v75 V0) (res_main_v75 V0)) (res_main_v75 V0))))))))) (aW2 V0)) (broadcastInDim S64x512x512 ![0, 1, 2] bcast_S1x1x512_S64x512x512_0_1_2 (broadcastInDim S1x1x512 ![2] bcast_S512_S1x1x512_2 (aBb2 V0))))

variable (x0 : Vec Ideal Cert.KernelIdeal.S1x512x512 .f32)

/-- Stage 1: the first LayerNorm of member b. -/
theorem stage_ln1 (hx : Mat b (k0_pay2 x0) (aX V0)) :
    Mat b (k0_pay3 x0 (aG1 V0) (aB1 V0)) (res_main_v23 V0) := by
  unfold k0_pay3 res_main_v23 res_main_v5 res_main_v3
  try dsimp only
  stack_walk

/-- Stage 2: vx of member b. -/
theorem stage_vx (h23 : Mat b (k0_pay3 x0 (aG1 V0) (aB1 V0)) (res_main_v23 V0)) :
    Mat b (k0_pay4 x0 (aG1 V0) (aB1 V0) (aWv V0)) (refVx V0) := by
  unfold k0_pay4 refVx res_main_v24
  try dsimp only
  stack_walk

/-- Stage 3: the scores of member b. -/
theorem stage_scores (h23 : Mat b (k0_pay3 x0 (aG1 V0) (aB1 V0)) (res_main_v23 V0)) :
    Mat b (k0_pay5 x0 (aG1 V0) (aB1 V0) (aWw V0)) (res_main_v27 V0) := by
  unfold k0_pay5 res_main_v27
  try dsimp only
  stack_walk

variable (v1 v35 v40 : FVec Ideal Cert.KernelIdeal.S512x512 .f32)

/-- Stage 4: the attention residual x2 of member b. The residual sum and the product of the softmax with vx
    transposed are taken by name (the product's left operand is the whole softmax); the walk does the softmax. -/
theorem stage_attn (h1 : Mat b v1 (aX V0)) (h35 : Mat b v35 (refVx V0)) (h40 : Mat b v40 (res_main_v27 V0)) :
    Mat b (k0_pay6 v1 v35 v40) (res_main_v47 V0) := by
  unfold k0_pay6 res_main_v47 res_main_v41 res_main_v34
  try dsimp only
  refine mat_add h1 (mat_mmT (mat_trunc _ ?_) (mat_trunc _ h35) _ _ _)
  stack_walk

/-- Stage 5: the second LayerNorm of member b. -/
theorem stage_ln2 (h47 : Mat b (k0_pay6 v1 v35 v40) (res_main_v47 V0)) :
    Mat b (k0_pay7 v1 v35 v40 (aG2 V0) (aB2 V0)) (refLN2 V0) := by
  unfold k0_pay7 refLN2 res_main_v53 res_main_v51
  try dsimp only
  stack_walk

/-- Stage 6: the MLP residual; the stored block [1, 512, 512] reads the reference's result at (b, i, j). -/
theorem stage_out (v59 : FVec Ideal Cert.KernelIdeal.S512x512 .f32) (v86 : FVec Ideal Cert.KernelIdeal.S512x512 .bf16)
    (h59 : Mat b v59 (res_main_v47 V0)) (h86 : Mat b v86 (refLN2 V0)) (u : Fin 1) (i j : Fin 512) :
    k0_pay1 v59 v86 (aW1 V0) (aBb1 V0) (aW2 V0) (aBb2 V0) (ix3 u i j) = refOut V0 (ix3 b i j) := by
  unfold k0_pay1
  try dsimp only
  refine block_of_mat (b := b) ?_ _ u i j
  unfold refOut res_main_v75
  try dsimp only
  stack_walk

end Cert.Bridge

end
-- ==== Proof.KernelValue.lean ====
/-
  FROM BLOCKS TO THE ARRAY: WHAT THE KERNEL'S RESULT ARRAY HOLDS AFTER THE RUN.

  The grid has 64 points. At point t the pipeline hands the body block t of the input stack — the matrix x[t], as
  a block [1, 512, 512] — and the ten weight and bias arrays whole (their block index is constant), and writes the
  body's result back as block t of the result stack. By the stage lemmas the body's result at point t, read at
  (0, i, j), is the reference's result stack at (t, i, j): point t writes block t of that stack. The 64 blocks
  tile the result array (index (b, i, j) lies in block b), so after the run the result array IS the reference's
  result, as one function of the argument arrays; the argument arrays end unchanged.
-/
import proofs.«131922_j49916109914403_1_alg».proof.Proof.Stages
import proofs.«131922_j49916109914403_1_alg».proof.Proof.Gen.KernelIdeal.Value

noncomputable section

namespace Cert.KernelIdeal.Bridge

open Cert.KernelIdeal Cert.KernelIdeal.Gen Idealize.ShloMosaic Idealize.ShloMosaic.TcCoe Idealize.SL.Sem
open Idealize.ShloMosaic.ValueIdx Cert.Stack
open Idealize.ShloMosaic.Pipeline (Dat)

variable (m : (ℓ : Loc nD τ sig) → Buf (Elt Ideal) ℓ) (ρ : Dev nD → PrngReg)

/-- The reference's launch arrays are the kernel's, argument by argument. -/
def Agree (V0 : Cert.Bridge.Val) (c : Dev nD) : Prop :=
  Cert.Bridge.aX V0 = m ((c : Thread nD τ).loc main_arg0)
  ∧ Cert.Bridge.aG1 V0 = m ((c : Thread nD τ).loc main_arg1)
  ∧ Cert.Bridge.aB1 V0 = m ((c : Thread nD τ).loc main_arg2)
  ∧ Cert.Bridge.aWv V0 = m ((c : Thread nD τ).loc main_arg3)
  ∧ Cert.Bridge.aWw V0 = m ((c : Thread nD τ).loc main_arg4)
  ∧ Cert.Bridge.aG2 V0 = m ((c : Thread nD τ).loc main_arg5)
  ∧ Cert.Bridge.aB2 V0 = m ((c : Thread nD τ).loc main_arg6)
  ∧ Cert.Bridge.aW1 V0 = m ((c : Thread nD τ).loc main_arg7)
  ∧ Cert.Bridge.aBb1 V0 = m ((c : Thread nD τ).loc main_arg8)
  ∧ Cert.Bridge.aW2 V0 = m ((c : Thread nD τ).loc main_arg9)
  ∧ Cert.Bridge.aBb2 V0 = m ((c : Thread nD τ).loc main_arg10)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input stack and the result stack move with the point along the batch
    axis, every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 3) = t.val ∧ win0_11.index t (1 : Fin 3) = 0 ∧ win0_11.index t (2 : Fin 3) = 0 :=
  (by decide +kernel : ∀ t : Fin grid0.N, _)

/-- The batch entry a grid point works on. -/
def entry (t : Fin cfg0.N) : Fin 64 := ⟨t.val, by have hN : cfg0.N = 64 := N_0; have := t.isLt; omega⟩

/-! ## The input blocks -/

/-- Block t of the input stack, read at (0, i, j), is the stack at (t, i, j). -/
theorem blk0 (c : Dev nD) (t : Fin cfg0.N) (i j : Fin 512) :
    (iblk m c 0 t : Vec Ideal S1x512x512 .f32) (ix3 (0 : Fin 1) i j)
      = (m ((c : Thread nD τ).loc main_arg0) : S64x512x512.Idx → Elt Ideal .f32) (ix3 (entry t) i j) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 512 + 1 * j.val = j.val; omega

/-- A window whose block is its whole array (block index 0 on every axis) hands the body the array. -/
theorem blk1 (c : Dev nD) (t : Fin cfg0.N) : (iblk m c 1 t : Vec Ideal S512 .f32) = m ((c : Thread nD τ).loc main_arg1) := by
  obtain ⟨-, -, -, e, -⟩ := idx_facts t
  funext y; unfold iblk; rw [View.read_apply]
  show V m c main_arg1 _ = V m c main_arg1 y
  refine congrArg (V m c main_arg1) (funext fun a => Fin.ext ?_)
  match a with
  | ⟨0, _⟩ => show win0_1.index t (0 : Fin 1) * 512 + 1 * (y 0).val = (y 0).val; omega

theorem blk2 (c : Dev nD) (t : Fin cfg0.N) : (iblk m c 2 t : Vec Ideal S512 .f32) = m ((c : Thread nD τ).loc main_arg2) := by
  obtain ⟨-, -, -, -, e, -⟩ := idx_facts t
  funext y; unfold iblk; rw [View.read_apply]
  show V m c main_arg2 _ = V m c main_arg2 y
  refine congrArg (V m c main_arg2) (funext fun a => Fin.ext ?_)
  match a with
  | ⟨0, _⟩ => show win0_2.index t (0 : Fin 1) * 512 + 1 * (y 0).val = (y 0).val; omega

theorem blk3 (c : Dev nD) (t : Fin cfg0.N) : (iblk m c 3 t : Vec Ideal S512x512 .f32) = m ((c : Thread nD τ).loc main_arg3) := by
  obtain ⟨-, -, -, -, -, e0, e1, -⟩ := idx_facts t
  funext y; unfold iblk; rw [View.read_apply]
  show V m c main_arg3 _ = V m c main_arg3 y
  refine congrArg (V m c main_arg3) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) : (iblk m c 4 t : Vec Ideal S512x512 .f32) = m ((c : Thread nD τ).loc main_arg4) := by
  obtain ⟨-, -, -, -, -, -, -, e0, e1, -⟩ := idx_facts t
  funext y; unfold iblk; rw [View.read_apply]
  show V m c main_arg4 _ = V m c main_arg4 y
  refine congrArg (V m c main_arg4) (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk5 (c : Dev nD) (t : Fin cfg0.N) : (iblk m c 5 t : Vec Ideal S512 .f32) = m ((c : Thread nD τ).loc main_arg5) := by
  obtain ⟨-, -, -, -, -, -, -, -, -, e, -⟩ := idx_facts t
  funext y; unfold iblk; rw [View.read_apply]
  show V m c main_arg5 _ = V m c main_arg5 y
  refine congrArg (V m c main_arg5) (funext fun a => Fin.ext ?_)
  match a with
  | ⟨0, _⟩ => show win0_5.index t (0 : Fin 1) * 512 + 1 * (y 0).val = (y 0).val; omega

theorem blk6 (c : Dev nD) (t : Fin cfg0.N) : (iblk m c 6 t : Vec Ideal S512 .f32) = m ((c : Thread nD τ).loc main_arg6) := by
  obtain ⟨-, -, -, -, -, -, -, -, -, -, e, -⟩ := idx_facts t
  funext y; unfold iblk; rw [View.read_apply]
  show V m c main_arg6 _ = V m c main_arg6 y
  refine congrArg (V m c main_arg6) (funext fun a => Fin.ext ?_)
  match a with
  | ⟨0, _⟩ => show win0_6.index t (0 : Fin 1) * 512 + 1 * (y 0).val = (y 0).val; omega

theorem blk7 (c : Dev nD) (t : Fin cfg0.N) : (iblk m c 7 t : Vec Ideal S512x2048 .f32) = m ((c : Thread nD τ).loc main_arg7) := by
  obtain ⟨-, -, -, -, -, -, -, -, -, -, -, e0, e1, -⟩ := idx_facts t
  funext y; unfold iblk; rw [View.read_apply]
  show V m c main_arg7 _ = V m c main_arg7 y
  refine congrArg (V m c main_arg7) (funext fun a => Fin.ext ?_)
  match a with
  | ⟨0, _⟩ => show win0_7.index t (0 : Fin 2) * 512 + 1 * (y 0).val = (y 0).val; omega
  | ⟨1, _⟩ => show win0_7.index t (1 : Fin 2) * 2048 + 1 * (y 1).val = (y 1).val; omega

theorem blk8 (c : Dev nD) (t : Fin cfg0.N) : (iblk m c 8 t : Vec Ideal S2048 .f32) = m ((c : Thread nD τ).loc main_arg8) := by
  obtain ⟨-, -, -, -, -, -, -, -, -, -, -, -, -, e, -⟩ := idx_facts t
  funext y; unfold iblk; rw [View.read_apply]
  show V m c main_arg8 _ = V m c main_arg8 y
  refine congrArg (V m c main_arg8) (funext fun a => Fin.ext ?_)
  match a with
  | ⟨0, _⟩ => show win0_8.index t (0 : Fin 1) * 2048 + 1 * (y 0).val = (y 0).val; omega

theorem blk9 (c : Dev nD) (t : Fin cfg0.N) : (iblk m c 9 t : Vec Ideal S2048x512 .f32) = m ((c : Thread nD τ).loc main_arg9) := by
  obtain ⟨-, -, -, -, -, -, -, -, -, -, -, -, -, -, e0, e1, -⟩ := idx_facts t
  funext y; unfold iblk; rw [View.read_apply]
  show V m c main_arg9 _ = V m c main_arg9 y
  refine congrArg (V m c main_arg9) (funext fun a => Fin.ext ?_)
  match a with
  | ⟨0, _⟩ => show win0_9.index t (0 : Fin 2) * 2048 + 1 * (y 0).val = (y 0).val; omega
  | ⟨1, _⟩ => show win0_9.index t (1 : Fin 2) * 512 + 1 * (y 1).val = (y 1).val; omega

theorem blk10 (c : Dev nD) (t : Fin cfg0.N) : (iblk m c 10 t : Vec Ideal S512 .f32) = m ((c : Thread nD τ).loc main_arg10) := by
  obtain ⟨-, -, -, -, -, -, -, -, -, -, -, -, -, -, -, -, e, -⟩ := idx_facts t
  funext y; unfold iblk; rw [View.read_apply]
  show V m c main_arg10 _ = V m c main_arg10 y
  refine congrArg (V m c main_arg10) (funext fun a => Fin.ext ?_)
  match a with
  | ⟨0, _⟩ => show win0_10.index t (0 : Fin 1) * 512 + 1 * (y 0).val = (y 0).val; omega

/-! ## One point -/

/-- The body's result from blocks that are batch entry b of the input stack and the weight arrays whole, read at an
    index y of the stored block, is the reference's result at the stack index k = (b, y 1, y 2): the six stages in
    order. Stated over variables of the literal block types; the windows' blocks are put in afterwards. -/
theorem point_eq (V0 : Cert.Bridge.Val) (b : Fin 64) (x0 : Vec Ideal S1x512x512 .f32) (x1 x2 : Vec Ideal S512 .f32)
    (x3 x4 : Vec Ideal S512x512 .f32) (x5 x6 : Vec Ideal S512 .f32) (x7 : Vec Ideal S512x2048 .f32) (x8 : Vec Ideal S2048 .f32)
    (x9 : Vec Ideal S2048x512 .f32) (x10 : Vec Ideal S512 .f32)
    (h0 : ∀ i j : Fin 512, x0 (ix3 (0 : Fin 1) i j) = Cert.Bridge.aX V0 (ix3 b i j))
    (h1 : x1 = Cert.Bridge.aG1 V0) (h2 : x2 = Cert.Bridge.aB1 V0) (h3 : x3 = Cert.Bridge.aWv V0)
    (h4 : x4 = Cert.Bridge.aWw V0) (h5 : x5 = Cert.Bridge.aG2 V0) (h6 : x6 = Cert.Bridge.aB2 V0)
    (h7 : x7 = Cert.Bridge.aW1 V0) (h8 : x8 = Cert.Bridge.aBb1 V0) (h9 : x9 = Cert.Bridge.aW2 V0)
    (h10 : x10 = Cert.Bridge.aBb2 V0)
    (y : S1x512x512.Idx) (k : Cert.ReferenceIdeal.S64x512x512.Idx)
    (hk0 : (k 0).val = b.val) (hk1 : (k 1).val = (y 1).val) (hk2 : (k 2).val = (y 2).val) :
    k0_pay1 (k0_pay6 (k0_pay2 x0) (k0_pay4 x0 x1 x2 x3) (k0_pay5 x0 x1 x2 x4))
        (k0_pay7 (k0_pay2 x0) (k0_pay4 x0 x1 x2 x3) (k0_pay5 x0 x1 x2 x4) x5 x6) x7 x8 x9 x10 y
      = Cert.Bridge.refOut V0 k := by
  subst h1 h2 h3 h4 h5 h6 h7 h8 h9 h10
  have hx : Mat b (k0_pay2 x0) (Cert.Bridge.aX V0) := mat_of_block h0 _
  have h23 := Cert.Bridge.stage_ln1 V0 b x0 hx
  have h35 := Cert.Bridge.stage_vx V0 b x0 h23
  have h40 := Cert.Bridge.stage_scores V0 b x0 h23
  have h47 := Cert.Bridge.stage_attn V0 b _ _ _ hx h35 h40
  have h86 := Cert.Bridge.stage_ln2 V0 b _ _ _ h47
  obtain ⟨u, i, j, rfl⟩ : ∃ (u : Fin 1) (i j : Fin 512), y = ix3 u i j := ⟨y 0, y 1, y 2, eq_ix3 y⟩
  have hk : k = ix3 b i j := by
    funext a; apply Fin.ext
    match a with
    | ⟨0, _⟩ => exact hk0
    | ⟨1, _⟩ => exact hk1
    | ⟨2, _⟩ => exact hk2
  rw [hk]
  exact Cert.Bridge.stage_out V0 b _ _ h47 h86 u i j

/-! ## The result array -/

variable (W : Dev nD → Cert.Bridge.Val)

/-- What point t writes back is block t of the reference's result stack. -/
theorem flushed_eq (c : Dev nD) (hag : Agree m (W c) c) (t : Fin cfg0.N) :
    (dats m 0 c).flushed 11 t = ((cfg0.win 11).blk t).view.read (Elt Ideal) (Cert.Bridge.refOut (W c)) := by
  obtain ⟨a0, a1, a2, a3, a4, a5, a6, a7, a8, a9, a10⟩ := hag
  obtain ⟨-, -, -, -, -, -, -, -, -, -, -, -, -, -, -, -, -, e0, e1, e2⟩ := idx_facts t
  rw [Value.flushed11]
  unfold out0_11
  rw [View.canon_unit_zero hz3]
  simp only [View.ld_unit_zero (S := S1x512x512) hz3, View.ld_unit_zero (S := S512) hz1,
    View.ld_unit_zero (S := S512x512) hz2, View.ld_unit_zero (S := S512x2048) hz2,
    View.ld_unit_zero (S := S2048) hz1, View.ld_unit_zero (S := S2048x512) hz2]
  funext y
  refine point_eq (W c) (entry t) (iblk m c 0 t) (iblk m c 1 t) (iblk m c 2 t) (iblk m c 3 t) (iblk m c 4 t)
    (iblk m c 5 t) (iblk m c 6 t) (iblk m c 7 t) (iblk m c 8 t) (iblk m c 9 t) (iblk m c 10 t)
    (fun i j => (blk0 m c t i j).trans (congrFun a0.symm _)) ((blk1 m c t).trans a1.symm) ((blk2 m c t).trans a2.symm)
    ((blk3 m c t).trans a3.symm) ((blk4 m c t).trans a4.symm) ((blk5 m c t).trans a5.symm) ((blk6 m c t).trans a6.symm)
    ((blk7 m c t).trans a7.symm) ((blk8 m c t).trans a8.symm) ((blk9 m c t).trans a9.symm) ((blk10 m c t).trans a10.symm)
    y (((cfg0.win 11).blk t).view.emb y) ?_ ?_ ?_
  · have hy : (y 0).val < 1 := (y 0).isLt
    show win0_11.index t (0 : Fin 3) * 1 + 1 * (y 0).val = t.val
    omega
  · show win0_11.index t (1 : Fin 3) * 512 + 1 * (y 1).val = (y 1).val
    omega
  · show win0_11.index t (2 : Fin 3) * 512 + 1 * (y 2).val = (y 2).val
    omega

/-- An index of the result array is in point t's block iff each coordinate is in the block's range on its axis. -/
theorem mem_blk11 (t : Fin cfg0.N) (i : S64x512x512.Idx) :
    i ∈ ((cfg0.win 11).blk t).view.set ↔ ∀ a : Fin 3, win0_11.index t a * S1x512x512.size a ≤ (i a).val
      ∧ (i a).val < win0_11.index t a * S1x512x512.size a + S1x512x512.size a := by
  show i ∈ ((View.whole main_v0).slice (win0_11.rect t)).set ↔ _
  rw [View.set_slice_whole, Rect.mem_set_unit]
  exact Iff.rfl

/-- The 64 blocks tile the result array: (b, i, j) lies in block b. -/
theorem cover11 (i : S64x512x512.Idx) :
    ∃ t : Fin cfg0.N, (cfg0.win 11).flush t = true ∧ i ∈ ((cfg0.win 11).blk t).view.set := by
  have hN : cfg0.N = 64 := N_0
  have hN' : grid0.N = 64 := N_0
  have h0 : (i 0).val < 64 := (i 0).isLt
  have h1 : (i 1).val < 512 := (i 1).isLt
  have h2 : (i 2).val < 512 := (i 2).isLt
  refine ⟨⟨(i 0).val, by omega⟩, flush0_11 _, ?_⟩
  obtain ⟨-, -, -, -, -, -, -, -, -, -, -, -, -, -, -, -, -, e0, e1, e2⟩ := idx_facts ⟨(i 0).val, by omega⟩
  have e0' : win0_11.index ⟨(i 0).val, by omega⟩ (0 : Fin 3) = (i 0).val := e0
  rw [mem_blk11]
  intro a
  match a with
  | ⟨0, _⟩ =>
    show win0_11.index ⟨(i 0).val, _⟩ (0 : Fin 3) * 1 ≤ (i 0).val ∧ (i 0).val < win0_11.index ⟨(i 0).val, _⟩ (0 : Fin 3) * 1 + 1
    rw [e0']; omega
  | ⟨1, _⟩ =>
    show win0_11.index ⟨(i 0).val, _⟩ (1 : Fin 3) * 512 ≤ (i 1).val ∧ (i 1).val < win0_11.index ⟨(i 0).val, _⟩ (1 : Fin 3) * 512 + 512
    rw [e1]; omega
  | ⟨2, _⟩ =>
    show win0_11.index ⟨(i 0).val, _⟩ (2 : Fin 3) * 512 ≤ (i 2).val ∧ (i 2).val < win0_11.index ⟨(i 0).val, _⟩ (2 : Fin 3) * 512 + 512
    rw [e2]; omega

/-- After the run the result array is the reference's result, as one function of the argument arrays. -/
theorem final11 (c : Dev nD) (hag : Agree m (W c) c) :
    (dats m 0 c).arrAt 11 cfg0.N = Cert.Bridge.refOut (W c) :=
  (dats m 0 c).arrAt_eq_of_cover 11 (Cert.Bridge.refOut (W c)) (fun t _ => flushed_eq m W c hag t) cover11

/-- The kernel's run with its result array named: the reference's result of the launch arrays; the arguments
    unchanged. -/
theorem run (hag : ∀ c, Agree m (W c) c) :
    θ_run defs (onTc (τ := τ) (main (F := Ideal))) ⟨m, fun _ => 0, ρ⟩ fun r => ∀ c : Dev nD,
      r.2.mem ((c : Thread nD τ).loc main_v0) = Cert.Bridge.refOut (W c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m W c (hag c)), (h c).2⟩) (Value.run_blocks m ρ)

end Cert.KernelIdeal.Bridge

end
-- ==== Proof.lean ====
/-
  THE CERTIFICATE: a transformer-style block on f32[64, 512, 512] — LayerNorm, two squared projections under a
  square root, a row softmax of pairwise scores, a residual, a second LayerNorm and a tanh-GELU MLP with a second
  residual — computed by one Pallas kernel on a grid of 64 points (one batch entry per point, the weights whole at
  every point) and, as the reference, by jnp on the whole stack.

  At the ideal values (floats are extended reals, every operation exact, a change of float format the identity) the
  two programs apply the same operations in the same order with the same constants, the kernel to one matrix of the
  stack at a time, the reference to the stack: the kernel's bf16 conversions on the way into its matrix products
  vanish, its products accumulate into zero where the host's have no accumulator, its lane sums start from the
  neutral zero where the host's start from the constant zero, and its x · (x · x) in the GELU is the host's
  (x · x) · x by commutativity. No step needs the inputs to be finite, so the precondition is never opened.

  * Proof/LibStackOps.lean, Proof/LibStackProducts.lean: "this matrix is member b of that stack" is preserved by every pair
    of operations that meets in the two programs.
  * Proof/Stages.lean: the six stages, each a walk down the two expression trees.
  * Proof/KernelValue.lean: point t writes block t of the reference's result stack; the 64 blocks tile the result
    array; so the kernel's result array after the run is the reference's result of the argument arrays.
  The three frames are the generated frame runs (the reference's its generated run with the result dropped);
  the ideal pass rewrote nothing, so its ledger is empty.
-/
import proofs.«131922_j49916109914403_1_alg».proof.Defs
import proofs.«131922_j49916109914403_1_alg».proof.Proof.Gen.Kernel
import proofs.«131922_j49916109914403_1_alg».proof.Proof.Gen.Kernel.Frame
import proofs.«131922_j49916109914403_1_alg».proof.Proof.Gen.KernelIdeal
import proofs.«131922_j49916109914403_1_alg».proof.Proof.Gen.KernelIdeal.Frame
import proofs.«131922_j49916109914403_1_alg».proof.Proof.Gen.KernelIdeal.Value
import proofs.«131922_j49916109914403_1_alg».proof.Proof.Gen.ReferenceIdeal
import proofs.«131922_j49916109914403_1_alg».proof.Proof.Gen.ReferenceIdeal.Run
import proofs.«131922_j49916109914403_1_alg».proof.Proof.Gen.Pre_finite_inputs
import proofs.«131922_j49916109914403_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the reference's result of the launch arrays: the kernel's by the blocks
    (Proof/KernelValue.lean), from launch arrays that agree with the reference's; the reference's by its own run. -/
theorem algebraic : Cert.algebraic_KernelIdeal_ReferenceIdeal := by
  intro m ρ m' ρ' _ hagree
  refine ⟨fun c => Cert.Bridge.refOut (StableHlo.launchContents m' c),
    Cert.KernelIdeal.Bridge.run m ρ (fun c => StableHlo.launchContents m' c) (fun c => hagree c), ?_⟩
  exact (θ_run Cert.ReferenceIdeal.defs _ _).mono (fun _ h c => h c)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
